-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S100000x47 : Shape := ⟨2, ![100000, 47]⟩
abbrev S5000x47 : Shape := ⟨2, ![5000, 47]⟩
abbrev S1x47 : Shape := ⟨2, ![1, 47]⟩

abbrev nBuf : Space → Nat
  | .hbm => 67
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x47, .f32⟩
  | .local _ .vmem, ⟨29, _⟩ => ⟨S128x47, .f32⟩
  | .local _ .vmem, ⟨30, _⟩ => ⟨S47, .f32⟩
  | .local _ .vmem, ⟨31, _⟩ => ⟨S5000x47, .f32⟩
  | .local _ .vmem, ⟨32, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x47 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x47_S128x47_0_0 : ∀ a, (![0, 0] : Fin 2 → Nat) a + S128x47.size a ≤ S128x47.size a
  h_S128x47 : 0 < S128x47.numel
  inb_S47_S47_0 : ∀ a, (![0] : Fin 1 → Nat) a + S47.size a ≤ S47.size a
  h_S47 : 0 < S47.numel
  shapeCasts_S47_S1x47 : S47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x47.size a ≤ S128x47.size a
  hwx2_4 : ∀ i : grid2.Coords, EltTy.bits .f32 = 32 ∨ (Rect.block (s := S128x47) S128x47.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S47.size a ≤ S47.size a
  hwx2_5 : ∀ i : grid2.Coords, EltTy.bits .f32 = 32 ∨ (Rect.block (s := S47) S47.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x47.size a ≤ S100000x47.size a
  hwx2_6 : ∀ i : grid2.Coords, EltTy.bits .f32 = 32 ∨ (Rect.block (s := S100000x47) S5000x47.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S5000x47.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x47 : Shape := ⟨2, ![100000, 47]⟩
abbrev S1x47 : Shape := ⟨2, ![1, 47]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S_, .f32⟩
  | .hbm, ⟨94, _⟩ => ⟨S1600000, .f32⟩
  | .hbm, ⟨95, _⟩ => ⟨S_, .f32⟩
  | .hbm, ⟨96, _⟩ => ⟨S100000, .f32⟩
  | .hbm, ⟨97, _⟩ => ⟨S1600000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x47, .f32⟩
  | .hbm, ⟨106, _⟩ => ⟨S100000x47, .f32⟩
  | .hbm, ⟨107, _⟩ => ⟨S100000x47, .f32⟩
  | .hbm, ⟨108, _⟩ => ⟨S1x47, .f32⟩
  | .hbm, ⟨109, _⟩ => ⟨S100000x47, .f32⟩
  | .hbm, ⟨110, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KernelRun.lean ====
/-
  The idealized kernel's run with its result named.

  The program is three pipelined regions among stretches of host operations. Its generated frame runs the segments
  from the launch memory and finds, at the end, every buffer that outlives the regions at the last boundary's contents
  `W6`: the fold of the host stretches and of the regions' write-backs over the launch memory. The frame keeps of this
  only that the arguments are unchanged. Here the same run is read once more at the result buffer: it ends holding
  `W6` there, beside the unchanged arguments. What `W6` holds at the result is the subject of the other modules.
-/
import proofs.«147651_j31894427140507_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Result

end
-- ==== Proof.MeanLayer.lean ====
/-
  A graph convolution that averages over in-neighbours, entry by entry, and three such layers in a row.

  A layer takes the node features `h` (one row of 128 numbers per node), the sums `agg` of the features of each
  node's in-neighbours, a scale `s p` per node, two weight matrices and a bias, and gives at node `p`, column `o`,

      act ( Σ_c h(p,c) · Ws(c,o)  +  Σ_c (agg(p,c) · s p) · Wn(c,o)  +  b(o) ).

  The scale of interest is the reciprocal of the node's in-degree floored at one, so that `agg(p,c) · s p` is the
  mean of the neighbours' features (and `0` for a node without in-neighbours). The network applies the layer three
  times, the aggregate of each layer recomputed from the previous layer's output by one fixed operator `A`, with a
  rectifier after the first two layers and none after the last. Everything is over the extended reals; nothing here
  needs an entry to be finite.
-/
import Idealize.ShloMosaic.PureOps.Ideal
import Idealize.ShloMosaic.Lib.ValueIdx

noncomputable section

open scoped BigOperators

namespace Cert.Sage

open Idealize.ShloMosaic Idealize.ShloMosaic.ValueIdx

/-- The float words of one and of zero, read as extended reals. -/
abbrev oneW : EReal := Ideal.ofBits .f32 0x3F800000#32
abbrev zeroW : EReal := Ideal.ofBits .f32 0x00000000#32

/-- Node features: one row of 128 numbers per node. -/
abbrev Feat : Type := FVec Ideal ⟨2, ![100000, 128]⟩ .f32

/-- The reciprocal of a node's in-degree floored at one. -/
def invDeg (cnt : FVec Ideal ⟨1, ![100000]⟩ .f32) (p : Fin 100000) : EReal :=
  Ideal.div oneW (max (cnt (ix1 p)) oneW)

/-- The rectifier: the larger of a value and zero. -/
def relu (v : EReal) : EReal := max v zeroW

/-- One layer at node `p`, output column `o`. -/
def layerAt {k : ℕ} (act : EReal → EReal) (h agg : Feat) (s : Fin 100000 → EReal)
    (Ws Wn : FVec Ideal ⟨2, ![128, k]⟩ .f32) (b : FVec Ideal ⟨1, ![k]⟩ .f32) (p : Fin 100000) (o : Fin k) : EReal :=
  act ((∑ c : Fin 128, h (ix2 p c) * Ws (ix2 c o) + ∑ c : Fin 128, (agg (ix2 p c) * s p) * Wn (ix2 c o)) + b (ix1 o))

/-- One layer as an array: entry `i` is the layer at node `i 0`, column `i 1`. -/
def layer {k : ℕ} (act : EReal → EReal) (h agg : Feat) (s : Fin 100000 → EReal)
    (Ws Wn : FVec Ideal ⟨2, ![128, k]⟩ .f32) (b : FVec Ideal ⟨1, ![k]⟩ .f32) : FVec Ideal ⟨2, ![100000, k]⟩ .f32 :=
  fun i => layerAt act h agg s Ws Wn b (i 0) (i 1)

theorem layer_apply {k : ℕ} (act : EReal → EReal) (h agg : Feat) (s : Fin 100000 → EReal)
    (Ws Wn : FVec Ideal ⟨2, ![128, k]⟩ .f32) (b : FVec Ideal ⟨1, ![k]⟩ .f32) (p : Fin 100000) (o : Fin k) :
    layer act h agg s Ws Wn b (ix2 p o) = layerAt act h agg s Ws Wn b p o := rfl

/-- Three layers: rectified, rectified, plain; each layer's aggregate is `A` of that layer's input. -/
def net (A : Feat → Feat) (s : Fin 100000 → EReal) (x : Feat)
    (W3 W4 : FVec Ideal ⟨2, ![128, 128]⟩ .f32) (b5 : FVec Ideal ⟨1, ![128]⟩ .f32)
    (W6 W7 : FVec Ideal ⟨2, ![128, 128]⟩ .f32) (b8 : FVec Ideal ⟨1, ![128]⟩ .f32)
    (W9 W10 : FVec Ideal ⟨2, ![128, 47]⟩ .f32) (b11 : FVec Ideal ⟨1, ![47]⟩ .f32) :
    FVec Ideal ⟨2, ![100000, 47]⟩ .f32 :=
  let h1 : Feat := layer relu x (A x) s W3 W4 b5
  let h2 : Feat := layer relu h1 (A h1) s W6 W7 b8
  layer (fun v => v) h2 (A h2) s W9 W10 b11

end Cert.Sage

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.BlockLayer.lean ====
/-
  One block of rows of a layer, entry by entry.

  The kernel works on a block of `R` consecutive nodes at a time. It multiplies the block of features by the first weight
  matrix, scales each row of the block of neighbour sums by that row's entry of a column of scales and multiplies
  the result by the second weight matrix, adds the two products and then the bias copied to every row. A product
  accumulated into the zero matrix is a plain sum over the shared axis; narrowing a float to a shorter format is the
  identity on the extended reals; a column copied along the rows reads its own row's entry; a bias laid out as one
  row and copied down reads its own column's entry. So the block's entry at row `q`, column `o`, is

      Σ_c h(q,c) · Ws(c,o)  +  Σ_c (agg(q,c) · inv(q,0)) · Wn(c,o)  +  b(o).
-/
import proofs.«147651_j31894427140507_2_alg».proof.Proof.LibPlainMatmul
import proofs.«147651_j31894427140507_2_alg».proof.Proof.LibMergeForms
import proofs.«147651_j31894427140507_2_alg».proof.Proof.LibColumnForms
import Idealize.ShloMosaic.PureOps.Ideal.Laws
import Idealize.ShloMosaic.Lib.Pipeline.Value
import Idealize.ShloMosaic.Lib.ValueIdx

noncomputable section

open scoped BigOperators

namespace Cert.Sage

open Idealize.ShloMosaic Idealize.ShloMosaic.ValueIdx Cert.PointConv Cert.ColumnForms

/-- The sum of the two products and the bias, for a block of `R` rows and `k` output columns. -/
theorem blockSum_apply {R k : ℕ}
    (wf : DotDims.WF (⟨2, ![R, 128]⟩ : Shape) ⟨2, ![128, k]⟩ ⟨2, ![R, k]⟩ [1] [0] [0] [1] [] [])
    (h agg : FVec Ideal ⟨2, ![R, 128]⟩ .f32) (inv : FVec Ideal ⟨2, ![R, 1]⟩ .f32)
    (Ws Wn : FVec Ideal ⟨2, ![128, k]⟩ .f32) (b : FVec Ideal ⟨1, ![k]⟩ .f32)
    (hcol : (⟨2, ![R, 1]⟩ : Shape).Broadcasts ⟨2, ![R, 128]⟩)
    (hrow : (⟨1, ![k]⟩ : Shape).ShapeCasts ⟨2, ![1, k]⟩) (hdown : (⟨2, ![1, k]⟩ : Shape).Broadcasts ⟨2, ![R, k]⟩)
    (q : Fin R) (o : Fin k) :
    addf (addf
        (FloatOps.matmul (plainDims R 128 k wf) none (truncf .bf16 h (by decide)) (truncf .bf16 Ws (by decide))
          (constant (F := Ideal) ⟨2, ![R, k]⟩ .f32 0x00000000#32))
        (FloatOps.matmul (plainDims R 128 k wf) none
          (truncf .bf16 (mulf agg (broadcastTo ⟨2, ![R, 128]⟩ inv hcol)) (by decide)) (truncf .bf16 Wn (by decide))
          (constant (F := Ideal) ⟨2, ![R, k]⟩ .f32 0x00000000#32)))
      (broadcastTo ⟨2, ![R, k]⟩ (shapeCast ⟨2, ![1, k]⟩ b hrow) hdown) (ix2 q o)
      = (∑ c : Fin 128, h (ix2 q c) * Ws (ix2 c o) + ∑ c : Fin 128, (agg (ix2 q c) * inv (ix2 q (0 : Fin 1))) * Wn (ix2 c o))
          + b (ix1 o) := by
  show (FloatOps.matmul (plainDims R 128 k wf) none (truncf .bf16 h (by decide)) (truncf .bf16 Ws (by decide))
          (constant (F := Ideal) ⟨2, ![R, k]⟩ .f32 0x00000000#32) (ix2 q o)
        + FloatOps.matmul (plainDims R 128 k wf) none
          (truncf .bf16 (mulf agg (broadcastTo ⟨2, ![R, 128]⟩ inv hcol)) (by decide)) (truncf .bf16 Wn (by decide))
          (constant (F := Ideal) ⟨2, ![R, k]⟩ .f32 0x00000000#32) (ix2 q o))
        + broadcastTo ⟨2, ![R, k]⟩ (shapeCast ⟨2, ![1, k]⟩ b hrow) hdown (ix2 q o) = _
  rw [plainMatmul_zero_apply, plainMatmul_zero_apply, rowBias_apply]
  refine congrArg (· + b (ix1 o)) (congrArg (_ + ·) (Finset.sum_congr rfl fun c _ => ?_))
  show (agg (ix2 q c) * broadcastTo ⟨2, ![R, 128]⟩ inv hcol (ix2 q c)) * Wn (ix2 c o) = _
  rw [broadcastTo_a1_ab_apply]

end Cert.Sage

end
-- ==== Proof.Region0.lean ====
/-
  Region 0 of the kernel: what it leaves in its output array.

  The region walks 20 grid points; point `t` works on the 5000 nodes `5000·t … 5000·t + 4999`. It reads their rows of
  the features, of the neighbour sums and of the column of scales, the two whole weight matrices and the whole bias, and
  writes back the 5000 × 128 block of one layer for those nodes, rectified. Row `q` of block `t` is node `5000·t + q`; the weight
  and bias blocks are the whole arrays. The 20 blocks tile the output array, so after the region the array is the
  layer of the arrays the region found, at every node.
-/
import proofs.«147651_j31894427140507_2_alg».proof.Proof.Gen.KernelIdeal.Frame
import proofs.«147651_j31894427140507_2_alg».proof.Proof.BlockLayer
import proofs.«147651_j31894427140507_2_alg».proof.Proof.MeanLayer

set_option maxRecDepth 16384

noncomputable section

open scoped BigOperators

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The body's arithmetic at row `q`, column `o` of its blocks: the layer's sum of that row, rectified. -/
theorem pay_apply (x0 : Vec Ideal S5000x128 .f32) (x2 : Vec Ideal S5000x1 .f32) (x1 : Vec Ideal S5000x128 .f32)
    (x3 x4 : Vec Ideal S128x128 .f32) (x5 : Vec Ideal S128 .f32) (q : Fin 5000) (o : Fin 128) :
    k0_pay1 (F := Ideal) x0 x2 x1 x3 x4 x5 (ix2 q o)
      = relu ((∑ c : Fin 128, x0 (ix2 q c) * x3 (ix2 c o) + ∑ c : Fin 128, (x1 (ix2 q c) * x2 (ix2 q (0 : Fin 1))) * x4 (ix2 c o))
          + x5 (ix1 o)) := by
  unfold k0_pay1
  simp only [shapeCast_self]
  exact congrArg (fun v => max v zeroW) (blockSum_apply dot_S5000x128_S128x128_S5000x128_1_0_0_1_n_n.wf x0 x1 x2 x3 x4 x5 _ _ _ q o)

/-- The printed index maps over the grid: the three row-blocked inputs and the output sit at block row `t`, block
    column `0`; the weights and the bias at block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Every block row of the output is some point's. -/
theorem idx_onto : ∀ q0 : Fin 20, ∃ t : Fin cfg0.N, win0_6.index t = ![q0.val, 0] :=
  (by decide +kernel : ∀ q0 : Fin 20, ∃ t : Fin grid0.N, win0_6.index t = ![q0.val, 0])

variable (V : (c : Dev nD) → (b : Ref sig .tc) → Buf (Elt Ideal) ((c : Thread nD τ).loc b))

/-- The layer of the arrays the region finds. -/
abbrev G (c : Dev nD) : S100000x128.Idx → Elt Ideal .f32 :=
  layer relu (V c main_arg0) (V c main_v18) (fun p => V c main_v8 (ix2 p (0 : Fin 1))) (V c main_arg3) (V c main_arg4) (V c main_arg5)

/-- What point `t` writes back is block `t` of the layer. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e41, e50, e60, e61⟩ := idx_facts t
  have hN : cfg0.N = 20 := N_0
  have ht : t.val < 20 := by have h := t.isLt; omega
  funext j
  obtain ⟨q, o, rfl⟩ : ∃ (q : Fin 5000) (o : Fin 128), j = ix2 q o := ⟨j 0, j 1, eq_ix2 j⟩
  have hq : q.val < 5000 := q.isLt
  have hrow : t.val * 5000 + q.val < 100000 := by omega
  refine (pay_apply (iblk0 V c 0 t) (iblk0 V c 2 t) (iblk0 V c 1 t) (iblk0 V c 3 t) (iblk0 V c 4 t) (iblk0 V c 5 t) q o).trans ?_
  have e6 : ((cfg0.win 6).blk t).view.emb (ix2 q o) = ix2 (⟨t.val * 5000 + q.val, hrow⟩ : Fin 100000) o := by
    funext a; apply Fin.ext
    match a with
    | ⟨0, _⟩ => show win0_6.index t (0 : Fin 2) * 5000 + 1 * q.val = t.val * 5000 + q.val; omega
    | ⟨1, _⟩ => show win0_6.index t (1 : Fin 2) * 128 + 1 * o.val = o.val; omega
  have e0 : ∀ cc : Fin 128, ((cfg0.win 0).blk t).view.emb (ix2 q cc) = ix2 (⟨t.val * 5000 + q.val, hrow⟩ : Fin 100000) cc := fun cc => by
    funext a; apply Fin.ext
    match a with
    | ⟨0, _⟩ => show win0_0.index t (0 : Fin 2) * 5000 + 1 * q.val = t.val * 5000 + q.val; omega
    | ⟨1, _⟩ => show win0_0.index t (1 : Fin 2) * 128 + 1 * cc.val = cc.val; omega
  have e1 : ∀ cc : Fin 128, ((cfg0.win 1).blk t).view.emb (ix2 q cc) = ix2 (⟨t.val * 5000 + q.val, hrow⟩ : Fin 100000) cc := fun cc => by
    funext a; apply Fin.ext
    match a with
    | ⟨0, _⟩ => show win0_1.index t (0 : Fin 2) * 5000 + 1 * q.val = t.val * 5000 + q.val; omega
    | ⟨1, _⟩ => show win0_1.index t (1 : Fin 2) * 128 + 1 * cc.val = cc.val; omega
  have e2 : ((cfg0.win 2).blk t).view.emb (ix2 q (0 : Fin 1)) = ix2 (⟨t.val * 5000 + q.val, hrow⟩ : Fin 100000) (0 : Fin 1) := by
    funext a; apply Fin.ext
    match a with
    | ⟨0, _⟩ => show win0_2.index t (0 : Fin 2) * 5000 + 1 * q.val = t.val * 5000 + q.val; omega
    | ⟨1, _⟩ => show win0_2.index t (1 : Fin 2) * 1 + 1 * 0 = 0; omega
  have e3 : ∀ cc : Fin 128, ((cfg0.win 3).blk t).view.emb (ix2 cc o) = ix2 cc o := fun cc => by
    funext a; apply Fin.ext
    match a with
    | ⟨0, _⟩ => show win0_3.index t (0 : Fin 2) * 128 + 1 * cc.val = cc.val; omega
    | ⟨1, _⟩ => show win0_3.index t (1 : Fin 2) * 128 + 1 * o.val = o.val; omega
  have e4 : ∀ cc : Fin 128, ((cfg0.win 4).blk t).view.emb (ix2 cc o) = ix2 cc o := fun cc => by
    funext a; apply Fin.ext
    match a with
    | ⟨0, _⟩ => show win0_4.index t (0 : Fin 2) * 128 + 1 * cc.val = cc.val; omega
    | ⟨1, _⟩ => show win0_4.index t (1 : Fin 2) * 128 + 1 * o.val = o.val; omega
  have e5 : ((cfg0.win 5).blk t).view.emb (ix1 o) = ix1 o := by
    funext a; apply Fin.ext
    match a with
    | ⟨0, _⟩ => show win0_5.index t (0 : Fin 1) * 128 + 1 * o.val = o.val; omega
  show _ = G V c (((cfg0.win 6).blk t).view.emb (ix2 q o))
  rw [e6]
  show _ = layerAt relu (V c main_arg0) (V c main_v18) (fun p => V c main_v8 (ix2 p (0 : Fin 1))) (V c main_arg3) (V c main_arg4) (V c main_arg5)
      (⟨t.val * 5000 + q.val, hrow⟩ : Fin 100000) o
  unfold layerAt
  refine congrArg relu ?_
  refine congrArg₂ (· + ·) (congrArg₂ (· + ·) (Finset.sum_congr rfl fun cc _ => ?_) (Finset.sum_congr rfl fun cc _ => ?_)) ?_
  · exact congrArg₂ (fun a b : EReal => a * b)
      (congrArg (V c main_arg0 : S100000x128.Idx → EReal) (e0 cc)) (congrArg (V c main_arg3 : S128x128.Idx → EReal) (e3 cc))
  · exact congrArg₂ (fun a b : EReal => a * b)
      (congrArg₂ (fun a b : EReal => a * b)
        (congrArg (V c main_v18 : S100000x128.Idx → EReal) (e1 cc)) (congrArg (V c main_v8 : S100000x1.Idx → EReal) e2))
      (congrArg (V c main_arg4 : S128x128.Idx → EReal) (e4 cc))
  · exact congrArg (V c main_arg5 : S128.Idx → EReal) e5

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19).slice (win0_6.rect t)).set ↔ _
  rw [View.set_slice_whole, Rect.mem_set_unit]
  exact Iff.rfl

/-- The 20 blocks cover the output array: node `n` is in the block of point `n / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the region: the layer of the arrays the region found. -/
theorem final (c : Dev nD) : (dat0 V c).arrAt 6 cfg0.N = G V c :=
  (dat0 V c).arrAt_eq_of_cover 6 (G V c) (fun t _ => flushed_eq V c t) cover

end Cert.KernelIdeal.Region0

end
-- ==== Proof.Region1.lean ====
/-
  Region 1 of the kernel: what it leaves in its output array.

  The region walks 20 grid points; point `t` works on the 5000 nodes `5000·t … 5000·t + 4999`. It reads their rows of
  the features, of the neighbour sums and of the column of scales, the two whole weight matrices and the whole bias, and
  writes back the 5000 × 128 block of one layer for those nodes, rectified. Row `q` of block `t` is node `5000·t + q`; the weight
  and bias blocks are the whole arrays. The 20 blocks tile the output array, so after the region the array is the
  layer of the arrays the region found, at every node.
-/
import proofs.«147651_j31894427140507_2_alg».proof.Proof.Gen.KernelIdeal.Frame
import proofs.«147651_j31894427140507_2_alg».proof.Proof.BlockLayer
import proofs.«147651_j31894427140507_2_alg».proof.Proof.MeanLayer

set_option maxRecDepth 16384

noncomputable section

open scoped BigOperators

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The body's arithmetic at row `q`, column `o` of its blocks: the layer's sum of that row, rectified. -/
theorem pay_apply (x0 : Vec Ideal S5000x128 .f32) (x2 : Vec Ideal S5000x1 .f32) (x1 : Vec Ideal S5000x128 .f32)
    (x3 x4 : Vec Ideal S128x128 .f32) (x5 : Vec Ideal S128 .f32) (q : Fin 5000) (o : Fin 128) :
    k1_pay1 (F := Ideal) x0 x2 x1 x3 x4 x5 (ix2 q o)
      = relu ((∑ c : Fin 128, x0 (ix2 q c) * x3 (ix2 c o) + ∑ c : Fin 128, (x1 (ix2 q c) * x2 (ix2 q (0 : Fin 1))) * x4 (ix2 c o))
          + x5 (ix1 o)) := by
  unfold k1_pay1
  simp only [shapeCast_self]
  exact congrArg (fun v => max v zeroW) (blockSum_apply dot_S5000x128_S128x128_S5000x128_1_0_0_1_n_n.wf x0 x1 x2 x3 x4 x5 _ _ _ q o)

/-- The printed index maps over the grid: the three row-blocked inputs and the output sit at block row `t`, block
    column `0`; the weights and the bias at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Every block row of the output is some point's. -/
theorem idx_onto : ∀ q0 : Fin 20, ∃ t : Fin cfg1.N, win1_6.index t = ![q0.val, 0] :=
  (by decide +kernel : ∀ q0 : Fin 20, ∃ t : Fin grid1.N, win1_6.index t = ![q0.val, 0])

variable (V : (c : Dev nD) → (b : Ref sig .tc) → Buf (Elt Ideal) ((c : Thread nD τ).loc b))

/-- The layer of the arrays the region finds. -/
abbrev G (c : Dev nD) : S100000x128.Idx → Elt Ideal .f32 :=
  layer relu (V c main_v19) (V c main_v29) (fun p => V c main_v8 (ix2 p (0 : Fin 1))) (V c main_arg6) (V c main_arg7) (V c main_arg8)

/-- What point `t` writes back is block `t` of the layer. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x128) hz2, View.ld_unit_zero (S := S128) hz1]
  obtain ⟨e00, e01, e10, e11, e20, e21, e30, e31, e40, e41, e50, e60, e61⟩ := idx_facts t
  have hN : cfg1.N = 20 := N_1
  have ht : t.val < 20 := by have h := t.isLt; omega
  funext j
  obtain ⟨q, o, rfl⟩ : ∃ (q : Fin 5000) (o : Fin 128), j = ix2 q o := ⟨j 0, j 1, eq_ix2 j⟩
  have hq : q.val < 5000 := q.isLt
  have hrow : t.val * 5000 + q.val < 100000 := by omega
  refine (pay_apply (iblk1 V c 0 t) (iblk1 V c 2 t) (iblk1 V c 1 t) (iblk1 V c 3 t) (iblk1 V c 4 t) (iblk1 V c 5 t) q o).trans ?_
  have e6 : ((cfg1.win 6).blk t).view.emb (ix2 q o) = ix2 (⟨t.val * 5000 + q.val, hrow⟩ : Fin 100000) o := by
    funext a; apply Fin.ext
    match a with
    | ⟨0, _⟩ => show win1_6.index t (0 : Fin 2) * 5000 + 1 * q.val = t.val * 5000 + q.val; omega
    | ⟨1, _⟩ => show win1_6.index t (1 : Fin 2) * 128 + 1 * o.val = o.val; omega
  have e0 : ∀ cc : Fin 128, ((cfg1.win 0).blk t).view.emb (ix2 q cc) = ix2 (⟨t.val * 5000 + q.val, hrow⟩ : Fin 100000) cc := fun cc => by
    funext a; apply Fin.ext
    match a with
    | ⟨0, _⟩ => show win1_0.index t (0 : Fin 2) * 5000 + 1 * q.val = t.val * 5000 + q.val; omega
    | ⟨1, _⟩ => show win1_0.index t (1 : Fin 2) * 128 + 1 * cc.val = cc.val; omega
  have e1 : ∀ cc : Fin 128, ((cfg1.win 1).blk t).view.emb (ix2 q cc) = ix2 (⟨t.val * 5000 + q.val, hrow⟩ : Fin 100000) cc := fun cc => by
    funext a; apply Fin.ext
    match a with
    | ⟨0, _⟩ => show win1_1.index t (0 : Fin 2) * 5000 + 1 * q.val = t.val * 5000 + q.val; omega
    | ⟨1, _⟩ => show win1_1.index t (1 : Fin 2) * 128 + 1 * cc.val = cc.val; omega
  have e2 : ((cfg1.win 2).blk t).view.emb (ix2 q (0 : Fin 1)) = ix2 (⟨t.val * 5000 + q.val, hrow⟩ : Fin 100000) (0 : Fin 1) := by
    funext a; apply Fin.ext
    match a with
    | ⟨0, _⟩ => show win1_2.index t (0 : Fin 2) * 5000 + 1 * q.val = t.val * 5000 + q.val; omega
    | ⟨1, _⟩ => show win1_2.index t (1 : Fin 2) * 1 + 1 * 0 = 0; omega
  have e3 : ∀ cc : Fin 128, ((cfg1.win 3).blk t).view.emb (ix2 cc o) = ix2 cc o := fun cc => by
    funext a; apply Fin.ext
    match a with
    | ⟨0, _⟩ => show win1_3.index t (0 : Fin 2) * 128 + 1 * cc.val = cc.val; omega
    | ⟨1, _⟩ => show win1_3.index t (1 : Fin 2) * 128 + 1 * o.val = o.val; omega
  have e4 : ∀ cc : Fin 128, ((cfg1.win 4).blk t).view.emb (ix2 cc o) = ix2 cc o := fun cc => by
    funext a; apply Fin.ext
    match a with
    | ⟨0, _⟩ => show win1_4.index t (0 : Fin 2) * 128 + 1 * cc.val = cc.val; omega
    | ⟨1, _⟩ => show win1_4.index t (1 : Fin 2) * 128 + 1 * o.val = o.val; omega
  have e5 : ((cfg1.win 5).blk t).view.emb (ix1 o) = ix1 o := by
    funext a; apply Fin.ext
    match a with
    | ⟨0, _⟩ => show win1_5.index t (0 : Fin 1) * 128 + 1 * o.val = o.val; omega
  show _ = G V c (((cfg1.win 6).blk t).view.emb (ix2 q o))
  rw [e6]
  show _ = layerAt relu (V c main_v19) (V c main_v29) (fun p => V c main_v8 (ix2 p (0 : Fin 1))) (V c main_arg6) (V c main_arg7) (V c main_arg8)
      (⟨t.val * 5000 + q.val, hrow⟩ : Fin 100000) o
  unfold layerAt
  refine congrArg relu ?_
  refine congrArg₂ (· + ·) (congrArg₂ (· + ·) (Finset.sum_congr rfl fun cc _ => ?_) (Finset.sum_congr rfl fun cc _ => ?_)) ?_
  · exact congrArg₂ (fun a b : EReal => a * b)
      (congrArg (V c main_v19 : S100000x128.Idx → EReal) (e0 cc)) (congrArg (V c main_arg6 : S128x128.Idx → EReal) (e3 cc))
  · exact congrArg₂ (fun a b : EReal => a * b)
      (congrArg₂ (fun a b : EReal => a * b)
        (congrArg (V c main_v29 : S100000x128.Idx → EReal) (e1 cc)) (congrArg (V c main_v8 : S100000x1.Idx → EReal) e2))
      (congrArg (V c main_arg7 : S128x128.Idx → EReal) (e4 cc))
  · exact congrArg (V c main_arg8 : S128.Idx → EReal) e5

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v30).slice (win1_6.rect t)).set ↔ _
  rw [View.set_slice_whole, Rect.mem_set_unit]
  exact Iff.rfl

/-- The 20 blocks cover the output array: node `n` is in the block of point `n / 5000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the region: the layer of the arrays the region found. -/
theorem final (c : Dev nD) : (dat1 V c).arrAt 6 cfg1.N = G V c :=
  (dat1 V c).arrAt_eq_of_cover 6 (G V c) (fun t _ => flushed_eq V c t) cover

end Cert.KernelIdeal.Region1

end
-- ==== Proof.Region2.lean ====
/-
  Region 2 of the kernel: what it leaves in its output array.

  The region walks 20 grid points; point `t` works on the 5000 nodes `5000·t … 5000·t + 4999`. It reads their rows of
  the features, of the neighbour sums and of the column of scales, the two whole weight matrices and the whole bias, and
  writes back the 5000 × 47 block of one layer for those nodes. Row `q` of block `t` is node `5000·t + q`; the weight
  and bias blocks are the whole arrays. The 20 blocks tile the output array, so after the region the array is the
  layer of the arrays the region found, at every node.
-/
import proofs.«147651_j31894427140507_2_alg».proof.Proof.Gen.KernelIdeal.Frame
import proofs.«147651_j31894427140507_2_alg».proof.Proof.BlockLayer
import proofs.«147651_j31894427140507_2_alg».proof.Proof.MeanLayer

set_option maxRecDepth 16384

noncomputable section

open scoped BigOperators

namespace Cert.KernelIdeal.Region2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a; rfl

/-- The body's arithmetic at row `q`, column `o` of its blocks: the layer's sum of that row. -/
theorem pay_apply (x0 : Vec Ideal S5000x128 .f32) (x2 : Vec Ideal S5000x1 .f32) (x1 : Vec Ideal S5000x128 .f32)
    (x3 x4 : Vec Ideal S128x47 .f32) (x5 : Vec Ideal S47 .f32) (q : Fin 5000) (o : Fin 47) :
    k2_pay1 (F := Ideal) x0 x2 x1 x3 x4 x5 (ix2 q o)
      = (fun v => v) ((∑ c : Fin 128, x0 (ix2 q c) * x3 (ix2 c o) + ∑ c : Fin 128, (x1 (ix2 q c) * x2 (ix2 q (0 : Fin 1))) * x4 (ix2 c o))
          + x5 (ix1 o)) := by
  unfold k2_pay1
  simp only [shapeCast_self]
  exact blockSum_apply dot_S5000x128_S128x47_S5000x47_1_0_0_1_n_n.wf x0 x1 x2 x3 x4 x5 _ _ _ q o

/-- The printed index maps over the grid: the three row-blocked inputs and the output sit at block row `t`, block
    column `0`; the weights and the bias at block `0`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Every block row of the output is some point's. -/
theorem idx_onto : ∀ q0 : Fin 20, ∃ t : Fin cfg2.N, win2_6.index t = ![q0.val, 0] :=
  (by decide +kernel : ∀ q0 : Fin 20, ∃ t : Fin grid2.N, win2_6.index t = ![q0.val, 0])

variable (V : (c : Dev nD) → (b : Ref sig .tc) → Buf (Elt Ideal) ((c : Thread nD τ).loc b))

/-- The layer of the arrays the region finds. -/
abbrev G (c : Dev nD) : S100000x47.Idx → Elt Ideal .f32 :=
  layer (fun v => v) (V c main_v30) (V c main_v40) (fun p => V c main_v8 (ix2 p (0 : Fin 1))) (V c main_arg9) (V c main_arg10) (V c main_arg11)

/-- What point `t` writes back is block `t` of the layer. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S5000x1) hz2,
    View.ld_unit_zero (S := S128x47) hz2, View.ld_unit_zero (S := S47) hz1]
  obtain ⟨e00, e01, e10, e11, e20, e21, e30, e31, e40, e41, e50, e60, e61⟩ := idx_facts t
  have hN : cfg2.N = 20 := N_2
  have ht : t.val < 20 := by have h := t.isLt; omega
  funext j
  obtain ⟨q, o, rfl⟩ : ∃ (q : Fin 5000) (o : Fin 47), j = ix2 q o := ⟨j 0, j 1, eq_ix2 j⟩
  have hq : q.val < 5000 := q.isLt
  have hrow : t.val * 5000 + q.val < 100000 := by omega
  refine (pay_apply (iblk2 V c 0 t) (iblk2 V c 2 t) (iblk2 V c 1 t) (iblk2 V c 3 t) (iblk2 V c 4 t) (iblk2 V c 5 t) q o).trans ?_
  have e6 : ((cfg2.win 6).blk t).view.emb (ix2 q o) = ix2 (⟨t.val * 5000 + q.val, hrow⟩ : Fin 100000) o := by
    funext a; apply Fin.ext
    match a with
    | ⟨0, _⟩ => show win2_6.index t (0 : Fin 2) * 5000 + 1 * q.val = t.val * 5000 + q.val; omega
    | ⟨1, _⟩ => show win2_6.index t (1 : Fin 2) * 47 + 1 * o.val = o.val; omega
  have e0 : ∀ cc : Fin 128, ((cfg2.win 0).blk t).view.emb (ix2 q cc) = ix2 (⟨t.val * 5000 + q.val, hrow⟩ : Fin 100000) cc := fun cc => by
    funext a; apply Fin.ext
    match a with
    | ⟨0, _⟩ => show win2_0.index t (0 : Fin 2) * 5000 + 1 * q.val = t.val * 5000 + q.val; omega
    | ⟨1, _⟩ => show win2_0.index t (1 : Fin 2) * 128 + 1 * cc.val = cc.val; omega
  have e1 : ∀ cc : Fin 128, ((cfg2.win 1).blk t).view.emb (ix2 q cc) = ix2 (⟨t.val * 5000 + q.val, hrow⟩ : Fin 100000) cc := fun cc => by
    funext a; apply Fin.ext
    match a with
    | ⟨0, _⟩ => show win2_1.index t (0 : Fin 2) * 5000 + 1 * q.val = t.val * 5000 + q.val; omega
    | ⟨1, _⟩ => show win2_1.index t (1 : Fin 2) * 128 + 1 * cc.val = cc.val; omega
  have e2 : ((cfg2.win 2).blk t).view.emb (ix2 q (0 : Fin 1)) = ix2 (⟨t.val * 5000 + q.val, hrow⟩ : Fin 100000) (0 : Fin 1) := by
    funext a; apply Fin.ext
    match a with
    | ⟨0, _⟩ => show win2_2.index t (0 : Fin 2) * 5000 + 1 * q.val = t.val * 5000 + q.val; omega
    | ⟨1, _⟩ => show win2_2.index t (1 : Fin 2) * 1 + 1 * 0 = 0; omega
  have e3 : ∀ cc : Fin 128, ((cfg2.win 3).blk t).view.emb (ix2 cc o) = ix2 cc o := fun cc => by
    funext a; apply Fin.ext
    match a with
    | ⟨0, _⟩ => show win2_3.index t (0 : Fin 2) * 128 + 1 * cc.val = cc.val; omega
    | ⟨1, _⟩ => show win2_3.index t (1 : Fin 2) * 47 + 1 * o.val = o.val; omega
  have e4 : ∀ cc : Fin 128, ((cfg2.win 4).blk t).view.emb (ix2 cc o) = ix2 cc o := fun cc => by
    funext a; apply Fin.ext
    match a with
    | ⟨0, _⟩ => show win2_4.index t (0 : Fin 2) * 128 + 1 * cc.val = cc.val; omega
    | ⟨1, _⟩ => show win2_4.index t (1 : Fin 2) * 47 + 1 * o.val = o.val; omega
  have e5 : ((cfg2.win 5).blk t).view.emb (ix1 o) = ix1 o := by
    funext a; apply Fin.ext
    match a with
    | ⟨0, _⟩ => show win2_5.index t (0 : Fin 1) * 47 + 1 * o.val = o.val; omega
  show _ = G V c (((cfg2.win 6).blk t).view.emb (ix2 q o))
  rw [e6]
  show _ = layerAt (fun v => v) (V c main_v30) (V c main_v40) (fun p => V c main_v8 (ix2 p (0 : Fin 1))) (V c main_arg9) (V c main_arg10) (V c main_arg11)
      (⟨t.val * 5000 + q.val, hrow⟩ : Fin 100000) o
  unfold layerAt
  refine congrArg (fun v => v) ?_
  refine congrArg₂ (· + ·) (congrArg₂ (· + ·) (Finset.sum_congr rfl fun cc _ => ?_) (Finset.sum_congr rfl fun cc _ => ?_)) ?_
  · exact congrArg₂ (fun a b : EReal => a * b)
      (congrArg (V c main_v30 : S100000x128.Idx → EReal) (e0 cc)) (congrArg (V c main_arg9 : S128x47.Idx → EReal) (e3 cc))
  · exact congrArg₂ (fun a b : EReal => a * b)
      (congrArg₂ (fun a b : EReal => a * b)
        (congrArg (V c main_v40 : S100000x128.Idx → EReal) (e1 cc)) (congrArg (V c main_v8 : S100000x1.Idx → EReal) e2))
      (congrArg (V c main_arg10 : S128x47.Idx → EReal) (e4 cc))
  · exact congrArg (V c main_arg11 : S47.Idx → EReal) e5

/-- An index of the output array is in point `t`'s block iff each coordinate is in the block's range on its axis. -/
theorem mem_blk (t : Fin cfg2.N) (i : S100000x47.Idx) :
    i ∈ ((cfg2.win 6).blk t).view.set ↔ ∀ a : Fin 2, win2_6.index t a * S5000x47.size a ≤ (i a).val ∧ (i a).val < win2_6.index t a * S5000x47.size a + S5000x47.size a := by
  show i ∈ ((View.whole main_v41).slice (win2_6.rect t)).set ↔ _
  rw [View.set_slice_whole, Rect.mem_set_unit]
  exact Iff.rfl

/-- The 20 blocks cover the output array: node `n` is in the block of point `n / 5000`. -/
theorem cover (i : S100000x47.Idx) : ∃ t : Fin cfg2.N, (cfg2.win 6).flush t = true ∧ i ∈ ((cfg2.win 6).blk t).view.set := by
  have hi0 : (i 0).val < 100000 := (i 0).isLt
  have hi1 : (i 1).val < 47 := (i 1).isLt
  obtain ⟨t, ht⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 47 ≤ (i 1).val ∧ (i 1).val < win2_6.index t (1 : Fin 2) * 47 + 47; omega

/-- The output array after the region: the layer of the arrays the region found. -/
theorem final (c : Dev nD) : (dat2 V c).arrAt 6 cfg2.N = G V c :=
  (dat2 V c).arrAt_eq_of_cover 6 (G V c) (fun t _ => flushed_eq V c t) cover

end Cert.KernelIdeal.Region2

end
-- ==== Proof.KernelNet.lean ====
/-
  The idealized kernel's result as a function of its arguments.

  Between the regions the program runs the same stretch of host operations three times: gather the rows of the current
  features named by `src`, add each into the row named by `dst` of a zero matrix. Before the first region it also
  counts every node's in-neighbours, floors the count at one and inverts it, once, as a column. No host operation and
  no region writes an argument, the column, or a buffer another region still reads, so the contents at each boundary
  are read back step by step: after the first stretch the aggregate of the input features and the column; after
  region 0 the first layer; after the second stretch its aggregate; after region 1 the second layer; after the third
  stretch its aggregate; after region 2 the third layer, which is the result.
-/
import proofs.«147651_j31894427140507_2_alg».proof.Proof.Gen.KernelIdeal.Frame
import proofs.«147651_j31894427140507_2_alg».proof.Proof.MeanLayer
import proofs.«147651_j31894427140507_2_alg».proof.Proof.Region0
import proofs.«147651_j31894427140507_2_alg».proof.Proof.Region1
import proofs.«147651_j31894427140507_2_alg».proof.Proof.Region2
import Idealize.ShloMosaic.Lib.StableHlo.Run

set_option maxRecDepth 16384

noncomputable section

namespace Cert.KernelIdeal.Net

open Cert.KernelIdeal Cert.KernelIdeal.Gen Cert.Sage
open Idealize.ShloMosaic Idealize.ShloMosaic.TcCoe Idealize.ShloMosaic.ValueIdx Idealize.SL.Sem Idealize.ShloMosaic.StableHlo

/-- Gather the rows of `h` named by `src` (a negative index counted from the end), and add each gathered row into
    the row of a zero matrix named by `dst`: the sums of the features of each node's in-neighbours. -/
def aggK (src dst : (⟨S1600000, .i32⟩ : BufTy).Contents (Elt Ideal)) (h : Feat) : Feat :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Add a one into the entry of a zero vector named by each `dst`: every node's in-degree. -/
def cntK (dst : (⟨S1600000, .i32⟩ : BufTy).Contents (Elt Ideal)) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The in-degrees laid out as a column, floored at one, and inverted. -/
def invK (dst : (⟨S1600000, .i32⟩ : BufTy).Contents (Elt Ideal)) : FVec Ideal S100000x1 .f32 :=
  Host.divf (F := Ideal) (broadcastInDim S100000x1 ![] bcast_S_S100000x1 (constant (F := Ideal) S_ .f32 0x3F800000#32))
    (maximumf (broadcastInDim S100000x1 ![0] bcast_S100000_S100000x1_0 (cntK dst))
      (broadcastInDim S100000x1 ![] bcast_S_S100000x1 (constant (F := Ideal) S_ .f32 0x3F800000#32)))

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-- The first layer of the arguments, and the second. -/
def H1 (c : Dev nD) : Feat :=
  layer relu (arg m c main_arg0) (aggK (arg m c main_arg1) (arg m c main_arg2) (arg m c main_arg0)) (fun p => invK (arg m c main_arg2) (ix2 p (0 : Fin 1))) (arg m c main_arg3) (arg m c main_arg4) (arg m c main_arg5)
def H2 (c : Dev nD) : Feat :=
  layer relu (H1 m c) (aggK (arg m c main_arg1) (arg m c main_arg2) (H1 m c)) (fun p => invK (arg m c main_arg2) (ix2 p (0 : Fin 1))) (arg m c main_arg6) (arg m c main_arg7) (arg m c main_arg8)

/-! ## What each boundary's contents hold -/

theorem v1_arg0 (c : Dev nD) : V1 m ρ c main_arg0 = arg m c main_arg0 := by
  show StableHlo.after hostOps0 (W0 m ρ c) (Proc.devRef .tc main_arg0) = _
  after_results_simp <;> rfl
theorem v1_arg1 (c : Dev nD) : V1 m ρ c main_arg1 = arg m c main_arg1 := by
  show StableHlo.after hostOps0 (W0 m ρ c) (Proc.devRef .tc main_arg1) = _
  after_results_simp <;> rfl
theorem v1_arg2 (c : Dev nD) : V1 m ρ c main_arg2 = arg m c main_arg2 := by
  show StableHlo.after hostOps0 (W0 m ρ c) (Proc.devRef .tc main_arg2) = _
  after_results_simp <;> rfl
theorem v1_arg3 (c : Dev nD) : V1 m ρ c main_arg3 = arg m c main_arg3 := by
  show StableHlo.after hostOps0 (W0 m ρ c) (Proc.devRef .tc main_arg3) = _
  after_results_simp <;> rfl
theorem v1_arg4 (c : Dev nD) : V1 m ρ c main_arg4 = arg m c main_arg4 := by
  show StableHlo.after hostOps0 (W0 m ρ c) (Proc.devRef .tc main_arg4) = _
  after_results_simp <;> rfl
theorem v1_arg5 (c : Dev nD) : V1 m ρ c main_arg5 = arg m c main_arg5 := by
  show StableHlo.after hostOps0 (W0 m ρ c) (Proc.devRef .tc main_arg5) = _
  after_results_simp <;> rfl
theorem v1_arg6 (c : Dev nD) : V1 m ρ c main_arg6 = arg m c main_arg6 := by
  show StableHlo.after hostOps0 (W0 m ρ c) (Proc.devRef .tc main_arg6) = _
  after_results_simp <;> rfl
theorem v1_arg7 (c : Dev nD) : V1 m ρ c main_arg7 = arg m c main_arg7 := by
  show StableHlo.after hostOps0 (W0 m ρ c) (Proc.devRef .tc main_arg7) = _
  after_results_simp <;> rfl
theorem v1_arg8 (c : Dev nD) : V1 m ρ c main_arg8 = arg m c main_arg8 := by
  show StableHlo.after hostOps0 (W0 m ρ c) (Proc.devRef .tc main_arg8) = _
  after_results_simp <;> rfl
theorem v1_arg9 (c : Dev nD) : V1 m ρ c main_arg9 = arg m c main_arg9 := by
  show StableHlo.after hostOps0 (W0 m ρ c) (Proc.devRef .tc main_arg9) = _
  after_results_simp <;> rfl
theorem v1_arg10 (c : Dev nD) : V1 m ρ c main_arg10 = arg m c main_arg10 := by
  show StableHlo.after hostOps0 (W0 m ρ c) (Proc.devRef .tc main_arg10) = _
  after_results_simp <;> rfl
theorem v1_arg11 (c : Dev nD) : V1 m ρ c main_arg11 = arg m c main_arg11 := by
  show StableHlo.after hostOps0 (W0 m ρ c) (Proc.devRef .tc main_arg11) = _
  after_results_simp <;> rfl
theorem v1_v18 (c : Dev nD) : V1 m ρ c main_v18 = aggK (arg m c main_arg1) (arg m c main_arg2) (arg m c main_arg0) := by
  show StableHlo.after hostOps0 (W0 m ρ c) (Proc.devRef .tc main_v18) = _
  after_results_simp <;> rfl
theorem v1_v8 (c : Dev nD) : V1 m ρ c main_v8 = invK (arg m c main_arg2) := by
  show StableHlo.after hostOps0 (W0 m ρ c) (Proc.devRef .tc main_v8) = _
  after_results_simp <;> rfl

/-- After region 0 its output array holds the first layer of the arguments. -/
theorem v2_v19 (c : Dev nD) : V2 m ρ c main_v19 = H1 m c := by
  refine ((W2_arr m ρ c 6).trans (Region0.final (V1 m ρ) c)).trans ?_
  show layer relu (V1 m ρ c main_arg0) (V1 m ρ c main_v18) (fun p => V1 m ρ c main_v8 (ix2 p (0 : Fin 1)))
      (V1 m ρ c main_arg3) (V1 m ρ c main_arg4) (V1 m ρ c main_arg5) = _
  rw [v1_arg0, v1_v18, v1_v8, v1_arg3, v1_arg4, v1_arg5]
  rfl
theorem v2_v8 (c : Dev nD) : V2 m ρ c main_v8 = invK (arg m c main_arg2) :=
  ((W2_arr m ρ c 2).trans (((dat0 (V1 m ρ) c).arrAt_in 2 rfl _).trans (A_eq0 (V1 m ρ) c 2))).trans (v1_v8 m ρ c)
theorem v2_arg1 (c : Dev nD) : V2 m ρ c main_arg1 = arg m c main_arg1 :=
  (W2_of_ne m ρ c main_arg1 (by decide)).trans (v1_arg1 m ρ c)
theorem v2_arg2 (c : Dev nD) : V2 m ρ c main_arg2 = arg m c main_arg2 :=
  (W2_of_ne m ρ c main_arg2 (by decide)).trans (v1_arg2 m ρ c)
theorem v2_arg6 (c : Dev nD) : V2 m ρ c main_arg6 = arg m c main_arg6 :=
  (W2_of_ne m ρ c main_arg6 (by decide)).trans (v1_arg6 m ρ c)
theorem v2_arg7 (c : Dev nD) : V2 m ρ c main_arg7 = arg m c main_arg7 :=
  (W2_of_ne m ρ c main_arg7 (by decide)).trans (v1_arg7 m ρ c)
theorem v2_arg8 (c : Dev nD) : V2 m ρ c main_arg8 = arg m c main_arg8 :=
  (W2_of_ne m ρ c main_arg8 (by decide)).trans (v1_arg8 m ρ c)
theorem v2_arg9 (c : Dev nD) : V2 m ρ c main_arg9 = arg m c main_arg9 :=
  (W2_of_ne m ρ c main_arg9 (by decide)).trans (v1_arg9 m ρ c)
theorem v2_arg10 (c : Dev nD) : V2 m ρ c main_arg10 = arg m c main_arg10 :=
  (W2_of_ne m ρ c main_arg10 (by decide)).trans (v1_arg10 m ρ c)
theorem v2_arg11 (c : Dev nD) : V2 m ρ c main_arg11 = arg m c main_arg11 :=
  (W2_of_ne m ρ c main_arg11 (by decide)).trans (v1_arg11 m ρ c)

theorem v3_v29 (c : Dev nD) : V3 m ρ c main_v29 = aggK (arg m c main_arg1) (arg m c main_arg2) (H1 m c) :=
  (show V3 m ρ c main_v29 = aggK (V2 m ρ c main_arg1) (V2 m ρ c main_arg2) (V2 m ρ c main_v19) from by
    show StableHlo.after hostOps1 (W2 m ρ c) (Proc.devRef .tc main_v29) = _
    after_results_simp <;> rfl).trans (by rw [v2_arg1, v2_arg2, v2_v19])
theorem v3_v19 (c : Dev nD) : V3 m ρ c main_v19 = H1 m c :=
  (show V3 m ρ c main_v19 = V2 m ρ c main_v19 from by
    show StableHlo.after hostOps1 (W2 m ρ c) (Proc.devRef .tc main_v19) = _
    after_results_simp <;> rfl).trans (v2_v19 m ρ c)
theorem v3_v8 (c : Dev nD) : V3 m ρ c main_v8 = invK (arg m c main_arg2) :=
  (show V3 m ρ c main_v8 = V2 m ρ c main_v8 from by
    show StableHlo.after hostOps1 (W2 m ρ c) (Proc.devRef .tc main_v8) = _
    after_results_simp <;> rfl).trans (v2_v8 m ρ c)
theorem v3_arg1 (c : Dev nD) : V3 m ρ c main_arg1 = arg m c main_arg1 :=
  (show V3 m ρ c main_arg1 = V2 m ρ c main_arg1 from by
    show StableHlo.after hostOps1 (W2 m ρ c) (Proc.devRef .tc main_arg1) = _
    after_results_simp <;> rfl).trans (v2_arg1 m ρ c)
theorem v3_arg2 (c : Dev nD) : V3 m ρ c main_arg2 = arg m c main_arg2 :=
  (show V3 m ρ c main_arg2 = V2 m ρ c main_arg2 from by
    show StableHlo.after hostOps1 (W2 m ρ c) (Proc.devRef .tc main_arg2) = _
    after_results_simp <;> rfl).trans (v2_arg2 m ρ c)
theorem v3_arg6 (c : Dev nD) : V3 m ρ c main_arg6 = arg m c main_arg6 :=
  (show V3 m ρ c main_arg6 = V2 m ρ c main_arg6 from by
    show StableHlo.after hostOps1 (W2 m ρ c) (Proc.devRef .tc main_arg6) = _
    after_results_simp <;> rfl).trans (v2_arg6 m ρ c)
theorem v3_arg7 (c : Dev nD) : V3 m ρ c main_arg7 = arg m c main_arg7 :=
  (show V3 m ρ c main_arg7 = V2 m ρ c main_arg7 from by
    show StableHlo.after hostOps1 (W2 m ρ c) (Proc.devRef .tc main_arg7) = _
    after_results_simp <;> rfl).trans (v2_arg7 m ρ c)
theorem v3_arg8 (c : Dev nD) : V3 m ρ c main_arg8 = arg m c main_arg8 :=
  (show V3 m ρ c main_arg8 = V2 m ρ c main_arg8 from by
    show StableHlo.after hostOps1 (W2 m ρ c) (Proc.devRef .tc main_arg8) = _
    after_results_simp <;> rfl).trans (v2_arg8 m ρ c)
theorem v3_arg9 (c : Dev nD) : V3 m ρ c main_arg9 = arg m c main_arg9 :=
  (show V3 m ρ c main_arg9 = V2 m ρ c main_arg9 from by
    show StableHlo.after hostOps1 (W2 m ρ c) (Proc.devRef .tc main_arg9) = _
    after_results_simp <;> rfl).trans (v2_arg9 m ρ c)
theorem v3_arg10 (c : Dev nD) : V3 m ρ c main_arg10 = arg m c main_arg10 :=
  (show V3 m ρ c main_arg10 = V2 m ρ c main_arg10 from by
    show StableHlo.after hostOps1 (W2 m ρ c) (Proc.devRef .tc main_arg10) = _
    after_results_simp <;> rfl).trans (v2_arg10 m ρ c)
theorem v3_arg11 (c : Dev nD) : V3 m ρ c main_arg11 = arg m c main_arg11 :=
  (show V3 m ρ c main_arg11 = V2 m ρ c main_arg11 from by
    show StableHlo.after hostOps1 (W2 m ρ c) (Proc.devRef .tc main_arg11) = _
    after_results_simp <;> rfl).trans (v2_arg11 m ρ c)

/-- After region 1 its output array holds the second layer. -/
theorem v4_v30 (c : Dev nD) : V4 m ρ c main_v30 = H2 m c := by
  refine ((W4_arr m ρ c 6).trans (Region1.final (V3 m ρ) c)).trans ?_
  show layer relu (V3 m ρ c main_v19) (V3 m ρ c main_v29) (fun p => V3 m ρ c main_v8 (ix2 p (0 : Fin 1)))
      (V3 m ρ c main_arg6) (V3 m ρ c main_arg7) (V3 m ρ c main_arg8) = _
  rw [v3_v19, v3_v29, v3_v8, v3_arg6, v3_arg7, v3_arg8]
  rfl
theorem v4_v8 (c : Dev nD) : V4 m ρ c main_v8 = invK (arg m c main_arg2) :=
  ((W4_arr m ρ c 2).trans (((dat1 (V3 m ρ) c).arrAt_in 2 rfl _).trans (A_eq1 (V3 m ρ) c 2))).trans (v3_v8 m ρ c)
theorem v4_arg1 (c : Dev nD) : V4 m ρ c main_arg1 = arg m c main_arg1 :=
  (W4_of_ne m ρ c main_arg1 (by decide)).trans (v3_arg1 m ρ c)
theorem v4_arg2 (c : Dev nD) : V4 m ρ c main_arg2 = arg m c main_arg2 :=
  (W4_of_ne m ρ c main_arg2 (by decide)).trans (v3_arg2 m ρ c)
theorem v4_arg9 (c : Dev nD) : V4 m ρ c main_arg9 = arg m c main_arg9 :=
  (W4_of_ne m ρ c main_arg9 (by decide)).trans (v3_arg9 m ρ c)
theorem v4_arg10 (c : Dev nD) : V4 m ρ c main_arg10 = arg m c main_arg10 :=
  (W4_of_ne m ρ c main_arg10 (by decide)).trans (v3_arg10 m ρ c)
theorem v4_arg11 (c : Dev nD) : V4 m ρ c main_arg11 = arg m c main_arg11 :=
  (W4_of_ne m ρ c main_arg11 (by decide)).trans (v3_arg11 m ρ c)

theorem v5_v40 (c : Dev nD) : V5 m ρ c main_v40 = aggK (arg m c main_arg1) (arg m c main_arg2) (H2 m c) :=
  (show V5 m ρ c main_v40 = aggK (V4 m ρ c main_arg1) (V4 m ρ c main_arg2) (V4 m ρ c main_v30) from by
    show StableHlo.after hostOps2 (W4 m ρ c) (Proc.devRef .tc main_v40) = _
    after_results_simp <;> rfl).trans (by rw [v4_arg1, v4_arg2, v4_v30])
theorem v5_v30 (c : Dev nD) : V5 m ρ c main_v30 = H2 m c :=
  (show V5 m ρ c main_v30 = V4 m ρ c main_v30 from by
    show StableHlo.after hostOps2 (W4 m ρ c) (Proc.devRef .tc main_v30) = _
    after_results_simp <;> rfl).trans (v4_v30 m ρ c)
theorem v5_v8 (c : Dev nD) : V5 m ρ c main_v8 = invK (arg m c main_arg2) :=
  (show V5 m ρ c main_v8 = V4 m ρ c main_v8 from by
    show StableHlo.after hostOps2 (W4 m ρ c) (Proc.devRef .tc main_v8) = _
    after_results_simp <;> rfl).trans (v4_v8 m ρ c)
theorem v5_arg9 (c : Dev nD) : V5 m ρ c main_arg9 = arg m c main_arg9 :=
  (show V5 m ρ c main_arg9 = V4 m ρ c main_arg9 from by
    show StableHlo.after hostOps2 (W4 m ρ c) (Proc.devRef .tc main_arg9) = _
    after_results_simp <;> rfl).trans (v4_arg9 m ρ c)
theorem v5_arg10 (c : Dev nD) : V5 m ρ c main_arg10 = arg m c main_arg10 :=
  (show V5 m ρ c main_arg10 = V4 m ρ c main_arg10 from by
    show StableHlo.after hostOps2 (W4 m ρ c) (Proc.devRef .tc main_arg10) = _
    after_results_simp <;> rfl).trans (v4_arg10 m ρ c)
theorem v5_arg11 (c : Dev nD) : V5 m ρ c main_arg11 = arg m c main_arg11 :=
  (show V5 m ρ c main_arg11 = V4 m ρ c main_arg11 from by
    show StableHlo.after hostOps2 (W4 m ρ c) (Proc.devRef .tc main_arg11) = _
    after_results_simp <;> rfl).trans (v4_arg11 m ρ c)

/-- After the last region the result array holds the three-layer network of the arguments, the aggregate of each layer
    the gather-and-add of that layer's input and the scale of each node its entry of the reciprocal column. -/
theorem result (c : Dev nD) : W6 m ρ c (Proc.devRef .tc main_v41)
    = net (aggK (arg m c main_arg1) (arg m c main_arg2)) (fun p => invK (arg m c main_arg2) (ix2 p (0 : Fin 1))) (arg m c main_arg0) (arg m c main_arg3) (arg m c main_arg4) (arg m c main_arg5) (arg m c main_arg6) (arg m c main_arg7) (arg m c main_arg8) (arg m c main_arg9) (arg m c main_arg10) (arg m c main_arg11) := by
  refine ((W6_arr m ρ c 6).trans (Region2.final (V5 m ρ) c)).trans ?_
  show layer (fun v => v) (V5 m ρ c main_v30) (V5 m ρ c main_v40) (fun p => V5 m ρ c main_v8 (ix2 p (0 : Fin 1)))
      (V5 m ρ c main_arg9) (V5 m ρ c main_arg10) (V5 m ρ c main_arg11) = _
  rw [v5_v30, v5_v40, v5_v8, v5_arg9, v5_arg10, v5_arg11]
  rfl

end Cert.KernelIdeal.Net

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.LibFlooredMean.lean ====
/-
  A mean by a count floored at one, taken by division or by the reciprocal: two pointwise laws over the extended reals,
  and the first of them on whole arrays.

  The mean over a node's in-neighbours divides a sum by the in-degree floored at one. One side divides by the floored
  degree, the other multiplies by its reciprocal. The floored degree is at least one, hence not zero, and the quotient
  of extended reals by a nonzero divisor IS the product with the divisor's inverse; so the two agree for every value of
  the sum and of the degree, infinite ones included. The other law is the order of the three summands of a layer:
  addition of extended reals is commutative and associative.
-/
import Idealize.ShloMosaic.PureOps.Ideal
import Idealize.ShloMosaic.PureOps.Ideal.Laws
import Idealize.ShloMosaic.Lib.IdealHost
import proofs.«147651_j31894427140507_2_alg».proof.Proof.LibHostRowForms

noncomputable section

namespace Cert.FlooredMean

open Idealize.ShloMosaic

/-- A divisor floored at one is not zero. -/
theorem floor_one_ne_zero (a : EReal) : max a 1 ≠ 0 :=
  (lt_of_lt_of_le zero_lt_one (le_max_right a 1)).ne'

/-- Dividing by a degree floored at one is multiplying by the reciprocal of that floored degree. -/
theorem div_floor_one (s a : EReal) : Ideal.div s (max a 1) = s * Ideal.div 1 (max a 1) := by
  have h : max a 1 ≠ 0 := floor_one_ne_zero a
  simp only [Ideal.div, if_neg h, one_mul]

/-- The same law with the float word of one where the programs print it. -/
theorem div_floor_one_word (s a : EReal) :
    Ideal.div s (max a (Ideal.ofBits .f32 0x3F800000#32))
      = s * Ideal.div (Ideal.ofBits .f32 0x3F800000#32) (max a (Ideal.ofBits .f32 0x3F800000#32)) := by
  rw [Ideal.ofBits_one_f32]
  exact div_floor_one s a

/-- A layer's three summands in either order. -/
theorem add_bias_last (a b c : EReal) : a + c + b = a + b + c := add_right_comm a c b

open Idealize.ShloMosaic.ValueIdx Cert.HostRowForms

/-- The law on whole arrays: a matrix of neighbour sums `[n, d]` divided by the floored degree of its row (the degree
    vector `[n]` floored at one, laid out as a column and copied along the row) is the matrix times the reciprocal of
    the floored degree laid out the same way. -/
theorem mean_forms {n d : ℕ} (S : FVec Ideal ⟨2, ![n, d]⟩ .f32) (cnt : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, d]⟩ ![0, 1]) :
    Host.divf S (broadcastInDim ⟨2, ![n, d]⟩ ![0, 1] h2 (broadcastInDim ⟨2, ![n, 1]⟩ ![0] h1
        (maximumf cnt (broadcastInDim ⟨1, ![n]⟩ ![] h0 (constant (F := Ideal) ⟨0, ![]⟩ .f32 0x3F800000#32)))))
      = mulf S (broadcastInDim ⟨2, ![n, d]⟩ ![0, 1] h2 (broadcastInDim ⟨2, ![n, 1]⟩ ![0] h1
        (Host.divf (broadcastInDim ⟨1, ![n]⟩ ![] h0 (constant (F := Ideal) ⟨0, ![]⟩ .f32 0x3F800000#32))
          (maximumf cnt (broadcastInDim ⟨1, ![n]⟩ ![] h0 (constant (F := Ideal) ⟨0, ![]⟩ .f32 0x3F800000#32)))))) := by
  funext i
  obtain ⟨p, q, rfl⟩ : ∃ (p : Fin n) (q : Fin d), i = ix2 p q := ⟨i 0, i 1, eq_ix2 i⟩
  show Ideal.div (S (ix2 p q)) (broadcastInDim (s := ⟨2, ![n, 1]⟩) ⟨2, ![n, d]⟩ ![0, 1] h2 _ (ix2 p q))
    = S (ix2 p q) * broadcastInDim (s := ⟨2, ![n, 1]⟩) ⟨2, ![n, d]⟩ ![0, 1] h2 _ (ix2 p q)
  rw [bcast_a1_ab_apply _ _ rfl, bcast_a1_ab_apply _ _ rfl, bcast_a_a1_apply _ _ rfl, bcast_a_a1_apply _ _ rfl]
  exact div_floor_one_word (S (ix2 p q)) (cnt (ix1 p))

end Cert.FlooredMean

end
-- ==== Proof.RefIsNet.lean ====
/-
  The reference's result is the three-layer network that averages over in-neighbours.

  The reference computes a layer as  act( h·Ws + (agg / max(cnt, 1))·Wn + b ): two matrix products over the 128
  feature columns, the neighbour sums `agg` divided entry by entry by the in-degree count floored at one, the bias
  copied along the rows, and a rectifier after the first two layers only. Read at node `p` and output column `o`,
  the first product is Σ_c h(p,c)·Ws(c,o), the second is Σ_c (agg(p,c) / max(cnt p, 1))·Wn(c,o), and the bias is
  b(o). The floored count is at least one, hence never zero, whatever the count is; so dividing by it is multiplying
  by its reciprocal, for every value of the sum and of the count, infinite ones included. That is the layer of the
  specification with the per-node scale `invDeg cnt`, and no entry has to be finite.

  The neighbour sums and the count come from a gather and from scatter-adds whose targets depend on the values of
  the edge arrays; they are never opened here and stay the same opaque terms on both sides. Each later layer
  recomputes them by the same operations over fresh constant buffers that hold the same words, so by unfolding
  definitions alone its aggregate is the first layer's operator applied to that layer's input, and its count is the
  first layer's count.
-/
import proofs.«147651_j31894427140507_2_alg».proof.Proof.Gen.ReferenceIdeal.Read
import proofs.«147651_j31894427140507_2_alg».proof.Proof.MeanLayer
import proofs.«147651_j31894427140507_2_alg».proof.Proof.LibFlooredMean

noncomputable section

open scoped BigOperators

namespace Cert.Sage.Ref

open Cert.ReferenceIdeal Cert.ReferenceIdeal.Read Idealize.ShloMosaic Idealize.ShloMosaic.ValueIdx Cert.Sage

/-- A layer whose neighbour term divides each sum by the floored degree is the layer that scales it by the
    reciprocal: the floored degree is not zero, so the quotient is the product with the inverse. -/
theorem layerAt_div {k : ℕ} (act : EReal → EReal) (h agg : Feat) (cnt : FVec Ideal ⟨1, ![100000]⟩ .f32)
    (Ws Wn : FVec Ideal ⟨2, ![128, k]⟩ .f32) (b : FVec Ideal ⟨1, ![k]⟩ .f32) (p : Fin 100000) (o : Fin k) :
    layerAt act h agg (invDeg cnt) Ws Wn b p o
      = act ((∑ c : Fin 128, h (ix2 p c) * Ws (ix2 c o)
          + ∑ c : Fin 128, Ideal.div (agg (ix2 p c)) (max (cnt (ix1 p)) oneW) * Wn (ix2 c o)) + b (ix1 o)) := by
  unfold layerAt invDeg
  have e : ∀ c : Fin 128, Ideal.div (agg (ix2 p c)) (max (cnt (ix1 p)) oneW)
      = agg (ix2 p c) * Ideal.div oneW (max (cnt (ix1 p)) oneW) :=
    fun c => Cert.FlooredMean.div_floor_one_word _ _
  simp only [e]

/-! ### First layer: where each operation reads its operands -/

theorem lidx19 (p : Fin 100000) (o k : Fin 128) : lidx_main_v19 (ix2 p o) k = ix2 p k :=
  funext fun a => Fin.ext (by match a with | ⟨0, _⟩ => rfl | ⟨1, _⟩ => rfl)
theorem ridx19 (p : Fin 100000) (o k : Fin 128) : ridx_main_v19 (ix2 p o) k = ix2 k o :=
  funext fun a => Fin.ext (by match a with | ⟨0, _⟩ => rfl | ⟨1, _⟩ => rfl)
theorem lidx20 (p : Fin 100000) (o k : Fin 128) : lidx_main_v20 (ix2 p o) k = ix2 p k :=
  funext fun a => Fin.ext (by match a with | ⟨0, _⟩ => rfl | ⟨1, _⟩ => rfl)
theorem ridx20 (p : Fin 100000) (o k : Fin 128) : ridx_main_v20 (ix2 p o) k = ix2 k o :=
  funext fun a => Fin.ext (by match a with | ⟨0, _⟩ => rfl | ⟨1, _⟩ => rfl)
theorem bidx23 (p : Fin 100000) (o : Fin 128) : idx_main_v22 (idx_main_v23 (ix2 p o)) = ix1 o :=
  funext fun a => Fin.ext (by match a with | ⟨0, _⟩ => rfl)
theorem didx17 (p : Fin 100000) (c : Fin 128) : idx_main_v16 (idx_main_v17 (ix2 p c)) = ix1 p :=
  funext fun a => Fin.ext (by match a with | ⟨0, _⟩ => rfl)

theorem layer1 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5
      = layer relu x0 (val_main_v9 (F := Ideal) x0 x1 x2) (invDeg (val_main_v13 (F := Ideal) x2)) x3 x4 x5 := by
  funext i
  obtain ⟨p, o, rfl⟩ : ∃ (p : Fin 100000) (o : Fin 128), i = ix2 p o := ⟨i 0, i 1, eq_ix2 i⟩
  rw [layer_apply, layerAt_div]
  unfold relu
  rw [val_main_v25_apply, val_main_call0_v0_apply, val_main_call0_cst_apply, val_main_v24_apply, val_main_v21_apply,
    val_main_v19_apply, val_main_v20_apply, val_main_v23_apply, val_main_v22_apply, bidx23]
  simp only [Ideal.addf_def, Ideal.maximumf_def, Ideal.ofBits_def]
  refine congrArg (fun v => max v zeroW) (congrArg (fun v => v + x5 (ix1 o)) (congrArg₂ (fun u v => u + v)
    (Finset.sum_congr rfl fun k _ => ?_) (Finset.sum_congr rfl fun k _ => ?_)))
  · rw [lidx19, ridx19]
  · rw [lidx20, ridx20, val_main_v18_apply, val_main_v17_apply, val_main_v16_apply, didx17, val_main_v15_apply,
      val_main_v14_apply, val_main_cst_3_apply]
    rfl

/-! ### Second layer -/

theorem lidx45 (p : Fin 100000) (o k : Fin 128) : lidx_main_v45 (ix2 p o) k = ix2 p k :=
  funext fun a => Fin.ext (by match a with | ⟨0, _⟩ => rfl | ⟨1, _⟩ => rfl)
theorem ridx45 (p : Fin 100000) (o k : Fin 128) : ridx_main_v45 (ix2 p o) k = ix2 k o :=
  funext fun a => Fin.ext (by match a with | ⟨0, _⟩ => rfl | ⟨1, _⟩ => rfl)
theorem lidx46 (p : Fin 100000) (o k : Fin 128) : lidx_main_v46 (ix2 p o) k = ix2 p k :=
  funext fun a => Fin.ext (by match a with | ⟨0, _⟩ => rfl | ⟨1, _⟩ => rfl)
theorem ridx46 (p : Fin 100000) (o k : Fin 128) : ridx_main_v46 (ix2 p o) k = ix2 k o :=
  funext fun a => Fin.ext (by match a with | ⟨0, _⟩ => rfl | ⟨1, _⟩ => rfl)
theorem bidx49 (p : Fin 100000) (o : Fin 128) : idx_main_v48 (idx_main_v49 (ix2 p o)) = ix1 o :=
  funext fun a => Fin.ext (by match a with | ⟨0, _⟩ => rfl)
theorem didx43 (p : Fin 100000) (c : Fin 128) : idx_main_v42 (idx_main_v43 (ix2 p c)) = ix1 p :=
  funext fun a => Fin.ext (by match a with | ⟨0, _⟩ => rfl)

theorem layer2 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v51 (F := Ideal) x0 x1 x2 x3 x4 x5 x6 x7 x8
      = layer relu (val_main_v25 (F := Ideal) x0 x1 x2 x3 x4 x5) (val_main_v35 (F := Ideal) x0 x1 x2 x3 x4 x5)
          (invDeg (val_main_v39 (F := Ideal) x2)) x6 x7 x8 := by
  funext i
  obtain ⟨p, o, rfl⟩ : ∃ (p : Fin 100000) (o : Fin 128), i = ix2 p o := ⟨i 0, i 1, eq_ix2 i⟩
  rw [layer_apply, layerAt_div]
  unfold relu
  rw [val_main_v51_apply, val_main_call1_v0_apply, val_main_call1_cst_apply, val_main_v50_apply, val_main_v47_apply,
    val_main_v45_apply, val_main_v46_apply, val_main_v49_apply, val_main_v48_apply, bidx49]
  simp only [Ideal.addf_def, Ideal.maximumf_def, Ideal.ofBits_def]
  refine congrArg (fun v => max v zeroW) (congrArg (fun v => v + x8 (ix1 o)) (congrArg₂ (fun u v => u + v)
    (Finset.sum_congr rfl fun k _ => ?_) (Finset.sum_congr rfl fun k _ => ?_)))
  · rw [lidx45, ridx45]
  · rw [lidx46, ridx46, val_main_v44_apply, val_main_v43_apply, val_main_v42_apply, didx43, val_main_v41_apply,
      val_main_v40_apply, val_main_cst_9_apply]
    rfl

/-! ### Third layer: 47 output columns, no rectifier -/

theorem lidx71 (p : Fin 100000) (o : Fin 47) (k : Fin 128) : lidx_main_v71 (ix2 p o) k = ix2 p k :=
  funext fun a => Fin.ext (by match a with | ⟨0, _⟩ => rfl | ⟨1, _⟩ => rfl)
theorem ridx71 (p : Fin 100000) (o : Fin 47) (k : Fin 128) : ridx_main_v71 (ix2 p o) k = ix2 k o :=
  funext fun a => Fin.ext (by match a with | ⟨0, _⟩ => rfl | ⟨1, _⟩ => rfl)
theorem lidx72 (p : Fin 100000) (o : Fin 47) (k : Fin 128) : lidx_main_v72 (ix2 p o) k = ix2 p k :=
  funext fun a => Fin.ext (by match a with | ⟨0, _⟩ => rfl | ⟨1, _⟩ => rfl)
theorem ridx72 (p : Fin 100000) (o : Fin 47) (k : Fin 128) : ridx_main_v72 (ix2 p o) k = ix2 k o :=
  funext fun a => Fin.ext (by match a with | ⟨0, _⟩ => rfl | ⟨1, _⟩ => rfl)
theorem bidx75 (p : Fin 100000) (o : Fin 47) : idx_main_v74 (idx_main_v75 (ix2 p o)) = ix1 o :=
  funext fun a => Fin.ext (by match a with | ⟨0, _⟩ => rfl)
theorem didx69 (p : Fin 100000) (c : Fin 128) : idx_main_v68 (idx_main_v69 (ix2 p c)) = ix1 p :=
  funext fun a => Fin.ext (by match a with | ⟨0, _⟩ => rfl)

theorem layer3 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x47, .f32⟩ : BufTy).Contents (Elt Ideal)) (x11 : (⟨S47, .f32⟩ : BufTy).Contents (Elt Ideal)) :
    val_main_v76 (F := Ideal) x0 x1 x2 x3 x4 x5 x6 x7 x8 x9 x10 x11
      = layer (fun v => v) (val_main_v51 (F := Ideal) x0 x1 x2 x3 x4 x5 x6 x7 x8)
          (val_main_v61 (F := Ideal) x0 x1 x2 x3 x4 x5 x6 x7 x8) (invDeg (val_main_v65 (F := Ideal) x2)) x9 x10 x11 := by
  funext i
  obtain ⟨p, o, rfl⟩ : ∃ (p : Fin 100000) (o : Fin 47), i = ix2 p o := ⟨i 0, i 1, eq_ix2 i⟩
  rw [layer_apply, layerAt_div]
  rw [val_main_v76_apply, val_main_v73_apply, val_main_v71_apply, val_main_v72_apply, val_main_v75_apply,
    val_main_v74_apply, bidx75]
  simp only [Ideal.addf_def]
  refine congrArg (fun v => v + x11 (ix1 o)) (congrArg₂ (fun u v => u + v)
    (Finset.sum_congr rfl fun k _ => ?_) (Finset.sum_congr rfl fun k _ => ?_))
  · rw [lidx71, ridx71]
  · rw [lidx72, ridx72, val_main_v70_apply, val_main_v69_apply, val_main_v68_apply, didx69, val_main_v67_apply,
      val_main_v66_apply, val_main_cst_15_apply]
    rfl

/-! ### The later layers gather, scatter and count exactly as the first does -/

theorem agg2 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal)) :
    val_main_v35 (F := Ideal) x0 x1 x2 x3 x4 x5
      = val_main_v9 (F := Ideal) (val_main_v25 (F := Ideal) x0 x1 x2 x3 x4 x5) x1 x2 := rfl

theorem cnt2 (x2 : (⟨S1600000, .i32⟩ : BufTy).Contents (Elt Ideal)) : val_main_v39 (F := Ideal) x2 = val_main_v13 (F := Ideal) x2 := rfl

theorem agg3 (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v61 (F := Ideal) x0 x1 x2 x3 x4 x5 x6 x7 x8
      = val_main_v9 (F := Ideal) (val_main_v51 (F := Ideal) x0 x1 x2 x3 x4 x5 x6 x7 x8) x1 x2 := rfl

theorem cnt3 (x2 : (⟨S1600000, .i32⟩ : BufTy).Contents (Elt Ideal)) : val_main_v65 (F := Ideal) x2 = val_main_v13 (F := Ideal) x2 := rfl

/-- The reference's result is the three-layer network: the aggregate of a layer's input is the scatter-add, into the
    rows named by the destinations, of the rows gathered at the sources, and the scale of a node is the reciprocal of
    its in-degree count floored at one. -/
theorem ref_is_net (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x47, .f32⟩ : BufTy).Contents (Elt Ideal)) (x11 : (⟨S47, .f32⟩ : BufTy).Contents (Elt Ideal)) :
    val_main_v76 (F := Ideal) x0 x1 x2 x3 x4 x5 x6 x7 x8 x9 x10 x11
      = net (fun h => val_main_v9 (F := Ideal) h x1 x2) (invDeg (val_main_v13 (F := Ideal) x2))
          x0 x3 x4 x5 x6 x7 x8 x9 x10 x11 := by
  rw [layer3, agg3, cnt3, layer2, agg2, cnt2, layer1]
  rfl

end Cert.Sage.Ref

end
-- ==== Proof.NetAgree.lean ====
/-
  The kernel's network and the reference's network are one function.

  Both sides are three layers of the same shape over the same arguments. They differ in how a layer's aggregate, count
  and scale are written, not in what they are. The aggregate is, on both sides, the same gather of rows followed by the
  same addition into rows of a zero matrix, operation for operation; the in-degree count is the same addition of ones.
  The kernel's scale is the entry of a column computed once before the first layer: the counts laid out as a column,
  floored at one, inverted; a vector laid out as a column reads, in row `p`, its entry `p`, so that entry is the
  reciprocal of node `p`'s count floored at one, which is the scale the reference's layers use.
-/
import proofs.«147651_j31894427140507_2_alg».proof.Proof.KernelNet
import proofs.«147651_j31894427140507_2_alg».proof.Proof.RefIsNet
import proofs.«147651_j31894427140507_2_alg».proof.Proof.LibHostRowForms

set_option maxRecDepth 16384

noncomputable section

namespace Cert.Sage.Agree

open Idealize.ShloMosaic Idealize.ShloMosaic.ValueIdx Cert.Sage Cert.KernelIdeal.Net

/-- A count vector laid out as a column, floored at one and inverted, reads in row `p` the reciprocal of the floored
    count of `p`: the two constant columns read the word of one everywhere, and the column of counts reads entry `p`. -/
theorem invCol_generic {n : ℕ} (cnt : FVec Ideal ⟨1, ![n]⟩ .f32)
    (h0 : (⟨0, ![]⟩ : Shape).BroadcastsInDim ⟨2, ![n, 1]⟩ ![])
    (h1 : (⟨1, ![n]⟩ : Shape).BroadcastsInDim ⟨2, ![n, 1]⟩ ![0]) (p : Fin n) :
    Host.divf (F := Ideal) (broadcastInDim ⟨2, ![n, 1]⟩ ![] h0 (constant (F := Ideal) ⟨0, ![]⟩ .f32 0x3F800000#32))
      (maximumf (broadcastInDim ⟨2, ![n, 1]⟩ ![0] h1 cnt)
        (broadcastInDim ⟨2, ![n, 1]⟩ ![] h0 (constant (F := Ideal) ⟨0, ![]⟩ .f32 0x3F800000#32))) (ix2 p (0 : Fin 1))
      = Ideal.div oneW (max (cnt (ix1 p)) oneW) := by
  show Ideal.div oneW (max (broadcastInDim (s := ⟨1, ![n]⟩) ⟨2, ![n, 1]⟩ ![0] h1 cnt (ix2 p (0 : Fin 1))) oneW) = _
  rw [Cert.HostRowForms.bcast_a_a1_apply _ _ rfl]

/-- Row `p` of the kernel's column of reciprocals is the reciprocal of node `p`'s in-degree floored at one. -/
theorem invCol_apply (dst : (⟨Cert.ReferenceIdeal.S1600000, .i32⟩ : BufTy).Contents (Elt Ideal)) (p : Fin 100000) :
    invK dst (ix2 p (0 : Fin 1)) = invDeg (cntK dst) p :=
  invCol_generic (cntK dst) _ _ p

theorem scale_same (dst : (⟨Cert.ReferenceIdeal.S1600000, .i32⟩ : BufTy).Contents (Elt Ideal)) :
    (fun p => invK dst (ix2 p (0 : Fin 1))) = invDeg (cntK dst) := funext (invCol_apply dst)

/-- The two programs gather and add with the same operations. -/
theorem agg_same (src dst : (⟨Cert.ReferenceIdeal.S1600000, .i32⟩ : BufTy).Contents (Elt Ideal)) :
    aggK src dst = fun h => Cert.ReferenceIdeal.Read.val_main_v9 (F := Ideal) h src dst := rfl

/-- And count the in-neighbours with the same operations. -/
theorem cnt_same (dst : (⟨Cert.ReferenceIdeal.S1600000, .i32⟩ : BufTy).Contents (Elt Ideal)) : cntK dst = Cert.ReferenceIdeal.Read.val_main_v13 (F := Ideal) dst := rfl

/-- The kernel's three-layer network of the arguments is the reference's result term. -/
theorem nets_agree (x0 : (⟨Cert.ReferenceIdeal.S100000x128, .f32⟩ : BufTy).Contents (Elt Ideal)) (x1 x2 : (⟨Cert.ReferenceIdeal.S1600000, .i32⟩ : BufTy).Contents (Elt Ideal))
    (x3 x4 : (⟨Cert.ReferenceIdeal.S128x128, .f32⟩ : BufTy).Contents (Elt Ideal)) (x5 : (⟨Cert.ReferenceIdeal.S128, .f32⟩ : BufTy).Contents (Elt Ideal))
    (x6 x7 : (⟨Cert.ReferenceIdeal.S128x128, .f32⟩ : BufTy).Contents (Elt Ideal)) (x8 : (⟨Cert.ReferenceIdeal.S128, .f32⟩ : BufTy).Contents (Elt Ideal))
    (x9 x10 : (⟨Cert.ReferenceIdeal.S128x47, .f32⟩ : BufTy).Contents (Elt Ideal)) (x11 : (⟨Cert.ReferenceIdeal.S47, .f32⟩ : BufTy).Contents (Elt Ideal)) :
    net (aggK x1 x2) (fun p => invK x2 (ix2 p (0 : Fin 1))) x0 x3 x4 x5 x6 x7 x8 x9 x10 x11
      = Cert.ReferenceIdeal.Read.val_main_v76 (F := Ideal) x0 x1 x2 x3 x4 x5 x6 x7 x8 x9 x10 x11 := by
  rw [Cert.Sage.Ref.ref_is_net, scale_same, agg_same, cnt_same]

end Cert.Sage.Agree

end
-- ==== Proof.lean ====
/-
  Three layers of a graph convolution that averages over in-neighbours: the kernel against its reference.

  Each layer maps node features `h` to  act( h·Ws + mean·Wn + b ), where row `p` of `mean` is the sum of the features
  of node `p`'s in-neighbours divided by the number of them, floored at one; `act` is a rectifier after the first two
  layers and nothing after the third. The neighbour sums are a gather of rows by `src` followed by an addition into rows
  by `dst`, and the counts an addition of ones by `dst`; both programs compute them on the host with the same
  operations, and they are never opened here.

  The kernel inverts the floored counts once, as a column, and runs three pipelined regions, one per layer. A region
  visits 20 blocks of 5000 nodes; on a block it forms the two products on the matrix unit (narrowing the operands to a
  shorter float format, which is the identity on the extended reals), scales each row of neighbour sums by that
  node's reciprocal before the second product, adds the bias and rectifies. The blocks tile the output, so each
  region leaves the whole layer in its output array, and the three compose to the network of the arguments.

  The reference divides the neighbour sums by the floored count inside every layer. A count floored at one is never
  zero, so dividing by it is multiplying by its reciprocal, for every value of the sum and of the count, the infinite
  ones included: the two networks are the same function of the arguments on the extended reals, and the precondition
  is not used. The kernel's idealization rewrote no operation, so that it preserves the kernel is immediate.
-/
import proofs.«147651_j31894427140507_2_alg».proof.Defs
import proofs.«147651_j31894427140507_2_alg».proof.Proof.Gen.Kernel
import proofs.«147651_j31894427140507_2_alg».proof.Proof.Gen.Kernel.Skeleton
import proofs.«147651_j31894427140507_2_alg».proof.Proof.Gen.Kernel.Launch
import proofs.«147651_j31894427140507_2_alg».proof.Proof.Gen.Kernel.Points
import proofs.«147651_j31894427140507_2_alg».proof.Proof.Gen.Kernel.Frame
import proofs.«147651_j31894427140507_2_alg».proof.Proof.Gen.KernelIdeal
import proofs.«147651_j31894427140507_2_alg».proof.Proof.Gen.KernelIdeal.Skeleton
import proofs.«147651_j31894427140507_2_alg».proof.Proof.Gen.KernelIdeal.Launch
import proofs.«147651_j31894427140507_2_alg».proof.Proof.Gen.KernelIdeal.Points
import proofs.«147651_j31894427140507_2_alg».proof.Proof.Gen.KernelIdeal.Frame
import proofs.«147651_j31894427140507_2_alg».proof.Proof.Gen.ReferenceIdeal
import proofs.«147651_j31894427140507_2_alg».proof.Proof.Gen.ReferenceIdeal.Run
import proofs.«147651_j31894427140507_2_alg».proof.Proof.Gen.ReferenceIdeal.Read
import proofs.«147651_j31894427140507_2_alg».proof.Proof.Gen.Pre_finite_inputs
import proofs.«147651_j31894427140507_2_alg».proof.Proof.KernelRun
import proofs.«147651_j31894427140507_2_alg».proof.Proof.KernelNet
import proofs.«147651_j31894427140507_2_alg».proof.Proof.NetAgree
import Idealize.ShloMosaic.Adequacy
import Idealize.ShloMosaic.Init

set_option maxRecDepth 16384

noncomputable section

namespace Cert.Proof

open Idealize.ShloMosaic Idealize.ShloMosaic.ValueIdx Idealize.SL.Sem

/-- The reference terminates with its arguments unchanged: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the three-layer network of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Sage.net (Cert.KernelIdeal.Net.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (fun p => Cert.KernelIdeal.Net.invK (m ((c.tc : Thread Cert.KernelIdeal.nD Cert.KernelIdeal.τ).loc Cert.KernelIdeal.main_arg2)) (ix2 p (0 : Fin 1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Net.result m ρ c), (h c).2⟩) (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v76_eq, a0, a1, a2, a3, a4, a5, a6, a7, a8, a9, a10, a11]
    exact (Cert.Sage.Agree.nets_agree _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
